-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024x1024 : Shape := ⟨2, ![1024, 1024]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32x1024x1024 .f32) (main_arg1 : FVec F S32x1024x1024 .f32) (main_arg2 : FVec F S32x1024x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32x1024x1024 : Shape := ⟨3, ![32, 1024, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 15
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S32x1024x1024, .f32⟩
  | .hbm, ⟨19, _⟩ => ⟨S32x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1024x1024, .bf16⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v8 : Index := Scalar.indexCast v1
  let c0_3 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x1024.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x1024x1024.size a
  hwx0_0 : ∀ i : grid0.Coords, EltTy.bits .f32 = 32 ∨ (Rect.block (s := S32x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S32x1024x1024.size a
  hwx0_8 : ∀ i : grid0.Coords, EltTy.bits .f32 = 32 ∨ (Rect.block (s := S32x1024x1024) S1x512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S32x1024x1024.size a
  hwx0_9 : ∀ i : grid0.Coords, EltTy.bits .f32 = 32 ∨ (Rect.block (s := S32x1024x1024) S1x512x1024.size (cc0_transform_9 i) (hinb0_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 38
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32x1024x1024, .f32⟩
  | .hbm, ⟨10, _⟩ => ⟨S1x1x1024, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S32x1024x1024, .f32⟩
  | .hbm, ⟨15, _⟩ => ⟨S1x1x1024, .f32⟩
  | .hbm, ⟨16, _⟩ => ⟨S32x1024x1024, .f32⟩
  | .hbm, ⟨17, _⟩ => ⟨S32x1024x1024, .f32⟩
  | .hbm, ⟨18, _⟩ => ⟨S32x1024x1024, .f32⟩
  | .hbm, ⟨19, _⟩ => ⟨S32x1024x1024, .f32⟩
  | .hbm, ⟨20, _⟩ => ⟨S1x1x1024, .f32⟩
  | .hbm, ⟨21, _⟩ => ⟨S32x1024x1024, .f32⟩
  | .hbm, ⟨22, _⟩ => ⟨S32x1024x1024, .f32⟩
  | .hbm, ⟨23, _⟩ => ⟨S_, .f32⟩
  | .hbm, ⟨24, _⟩ => ⟨S32x1024, .f32⟩
  | .hbm, ⟨25, _⟩ => ⟨S_, .f32⟩
  | .hbm, ⟨26, _⟩ => ⟨S32x1024, .f32⟩
  | .hbm, ⟨27, _⟩ => ⟨S32x1024, .f32⟩
  | .hbm, ⟨28, _⟩ => ⟨S32x1024x1, .f32⟩
  | .hbm, ⟨29, _⟩ => ⟨S32x1024x1024, .f32⟩
  | .hbm, ⟨30, _⟩ => ⟨S32x1024x1024, .f32⟩
  | .hbm, ⟨31, _⟩ => ⟨S32x1024x1024, .f32⟩
  | .hbm, ⟨32, _⟩ => ⟨S_, .f32⟩
  | .hbm, ⟨33, _⟩ => ⟨S32x1024, .f32⟩
  | .hbm, ⟨34, _⟩ => ⟨S32x1024x1, .f32⟩
  | .hbm, ⟨35, _⟩ => ⟨S32x1024x1024, .f32⟩
  | .hbm, ⟨36, _⟩ => ⟨S32x1024x1024, .f32⟩
  | .hbm, ⟨37, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x1024_S1024x1024_S32x1024x1024_2_1_01_0_n_n_wf : DotDims.WF S32x1024x1024 S1024x1024 S32x1024x1024 [2] [1] [0, 1] [0] [] []
  dot_S32x1024x1024_S32x1024x1024_S32x1024x1024_2_1_1_2_0_0_wf : DotDims.WF S32x1024x1024 S32x1024x1024 S32x1024x1024 [2] [1] [1] [2] [0] [0]

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf

class Facts : Prop extends Facts₀ where

variable [Facts]
-- ==== Proof.Pieces.lean ====
/-
  What one run of the kernel body leaves behind, as values of what it read.

  The body keeps a copy of the current batch's value matrix between the two row tiles of a batch. On the first
  tile it refreshes the copy from the value block; on the second it uses the copy left by the first. Either way
  the scores of the tile are computed from the query tile, the matching 512 rows of the copy, the three transposed
  weight matrices and the three bias rows; the weights block is the row softmax of the scores, and the context
  block is the weights times the whole copy.
-/
import proofs.«123392_j10849087389795_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The 512 rows of a 1024-row matrix that belong to the row tile of grid point `i`: rows `512·l` onwards. -/
abbrev tileRows (i : grid0.Coords) (X : Vec F S1024x1024 .bf16) : Vec F S512x1024 .bf16 :=
  View.ld X (Rect.unit (s := S1024x1024) (k0_off1 i) S512x1024.size (k0_off1_inb i))

/-- The tile's scores from the query tile `x0`, the value copy `xv`, the weights and the biases. -/
abbrev tileScores (i : grid0.Coords) (x0 : Vec F S1x512x1024 .f32) (xv : Vec F S1024x1024 .bf16)
    (x2 x3 x4 : Vec F S1024x1024 .bf16) (x5 x6 x7 : Vec F S1x1024 .f32) : FVec F S512x1024 .f32 :=
  k0_pay5 x0 (tileRows i xv) x2 x3 x4 x5 x6 x7

/-- First tile of a batch: the copy is refreshed to the value block `x1` with its unit axis dropped. -/
theorem copy_first (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S1024x1024 .bf16) (harg12 : arg12.IsWhole) (hc0 : cond0_0 i)
    (x0 : Vec F S1x512x1024 .f32) (x1 : Vec F S1x1024x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay4 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero (S := S1024x1024) hz2]
  simp only [View.readAt_writes_junk_eq_canon, View.read_writes_junk_eq_canon, View.canon_unit_zero (S := S1024x1024) hz2, View.readCov_unit_zero (S := S1024x1024) _ hz2, View.readAt_eq_ld, harg2.read_unread, harg3.read_unread, harg4.read_unread, harg5.read_unread, harg6.read_unread, harg7.read_unread, harg8.read_unread, harg9.read_unread, harg12.read_unread, View.ld_unit_zero (S := S1x512x1024) hz3, View.ld_unit_zero (S := S1x1024x1024) hz3, View.ld_unit_zero (S := S1024x1024) hz2, View.ld_unit_zero (S := S1x1024) hz2]

/-- First tile of a batch: the weights block is the softmax of the scores computed over the refreshed copy. -/
theorem weights_first (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S1024x1024 .bf16) (harg12 : arg12.IsWhole) (hc0 : cond0_0 i)
    (x0 : Vec F S1x512x1024 .f32) (x1 : Vec F S1x1024x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay2 (tileScores i x0 (k0_pay4 x1) x2 x3 x4 x5 x6 x7) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz3]
  simp only [View.readAt_writes_junk_eq_canon, View.read_writes_junk_eq_canon, View.canon_unit_zero (S := S1024x1024) hz2, View.readCov_unit_zero (S := S1024x1024) _ hz2, View.readAt_eq_ld, harg2.read_unread, harg3.read_unread, harg4.read_unread, harg5.read_unread, harg6.read_unread, harg7.read_unread, harg8.read_unread, harg9.read_unread, harg12.read_unread, View.ld_unit_zero (S := S1x512x1024) hz3, View.ld_unit_zero (S := S1x1024x1024) hz3, View.ld_unit_zero (S := S1024x1024) hz2, View.ld_unit_zero (S := S1x1024) hz2]
  rfl

/-- First tile of a batch: the context block is those weights times the refreshed copy. -/
theorem context_first (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S1024x1024 .bf16) (harg12 : arg12.IsWhole) (hc0 : cond0_0 i)
    (x0 : Vec F S1x512x1024 .f32) (x1 : Vec F S1x1024x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay3 (tileScores i x0 (k0_pay4 x1) x2 x3 x4 x5 x6 x7) (k0_pay4 x1) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz3]
  simp only [View.readAt_writes_junk_eq_canon, View.read_writes_junk_eq_canon, View.canon_unit_zero (S := S1024x1024) hz2, View.readCov_unit_zero (S := S1024x1024) _ hz2, View.readAt_eq_ld, harg2.read_unread, harg3.read_unread, harg4.read_unread, harg5.read_unread, harg6.read_unread, harg7.read_unread, harg8.read_unread, harg9.read_unread, harg12.read_unread, View.ld_unit_zero (S := S1x512x1024) hz3, View.ld_unit_zero (S := S1x1024x1024) hz3, View.ld_unit_zero (S := S1024x1024) hz2, View.ld_unit_zero (S := S1x1024) hz2]
  rfl

/-- Later tile of a batch: the weights block is the softmax of the scores computed over the copy `xs0` it found. -/
theorem weights_later (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S1024x1024 .bf16) (harg12 : arg12.IsWhole) (hc0 : ¬cond0_0 i)
    (x0 : Vec F S1x512x1024 .f32) (x1 : Vec F S1x1024x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) (xs0 : Vec F S1024x1024 .bf16) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 = k0_pay2 (tileScores i x0 xs0 x2 x3 x4 x5 x6 x7) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0)]
  unfold kernelRun0_B
  dsimp only
  sl_unfold_words
  rw [View.canon_unit_zero hz3]
  simp only [View.readAt_writes_junk_eq_canon, View.read_writes_junk_eq_canon, View.canon_unit_zero (S := S1024x1024) hz2, View.readCov_unit_zero (S := S1024x1024) _ hz2, View.readAt_eq_ld, harg2.read_unread, harg3.read_unread, harg4.read_unread, harg5.read_unread, harg6.read_unread, harg7.read_unread, harg8.read_unread, harg9.read_unread, harg12.read_unread, View.ld_unit_zero (S := S1x512x1024) hz3, View.ld_unit_zero (S := S1x1024x1024) hz3, View.ld_unit_zero (S := S1024x1024) hz2, View.ld_unit_zero (S := S1x1024) hz2]
  rfl

/-- Later tile of a batch: the context block is those weights times the copy it found. -/
theorem context_later (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S1024x1024 .bf16) (harg12 : arg12.IsWhole) (hc0 : ¬cond0_0 i)
    (x0 : Vec F S1x512x1024 .f32) (x1 : Vec F S1x1024x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) (xs0 : Vec F S1024x1024 .bf16) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xs0 = k0_pay3 (tileScores i x0 xs0 x2 x3 x4 x5 x6 x7) xs0 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xs0)]
  unfold kernelRun0_B
  dsimp only
  sl_unfold_words
  rw [View.canon_unit_zero hz3]
  simp only [View.readAt_writes_junk_eq_canon, View.read_writes_junk_eq_canon, View.canon_unit_zero (S := S1024x1024) hz2, View.readCov_unit_zero (S := S1024x1024) _ hz2, View.readAt_eq_ld, harg2.read_unread, harg3.read_unread, harg4.read_unread, harg5.read_unread, harg6.read_unread, harg7.read_unread, harg8.read_unread, harg9.read_unread, harg12.read_unread, View.ld_unit_zero (S := S1x512x1024) hz3, View.ld_unit_zero (S := S1x1024x1024) hz3, View.ld_unit_zero (S := S1024x1024) hz2, View.ld_unit_zero (S := S1x1024) hz2]
  rfl

end Cert.KernelIdeal.Pieces

end
-- ==== Proof.AttnSpec.lean ====
/-
  Additive attention over a batch of sequences, stated once over the argument arrays as extended reals.

  For batch `b` and row `l`: the hidden vector is tanh of the sum of two affine images, of the query row and of the
  value row; the score vector is an affine image of the hidden vector; the weights are the softmax of the scores
  along the row (the exponentials of the scores less their maximum, over the sum of those exponentials); the
  context is the weights times the batch's value matrix. Every matrix is applied through its transpose, so row
  `o` of a weight matrix is dotted with the input row.
-/
import Idealize.ShloMosaic.PureOps.Ideal
import Idealize.ShloMosaic.Lib.ValueIdx

noncomputable section

namespace Attn

open Idealize.ShloMosaic Idealize.ShloMosaic.ValueIdx

/-- The shape of the batched arrays (query, value, both results). -/
abbrev Sblh : Shape := ⟨3, ![32, 1024, 1024]⟩
/-- The shape of the three weight matrices. -/
abbrev Shh : Shape := ⟨2, ![1024, 1024]⟩
/-- The shape of the three bias vectors. -/
abbrev Sh : Shape := ⟨1, ![1024]⟩

/-- The softmax of one row of 1024 extended reals at position `k`: the exponential of the entry less the row's
    maximum (a fold of `max` from minus infinity's pattern), over the sum of those exponentials along the row. -/
def softmaxRow (s : Fin 1024 → EReal) (k : Fin 1024) : EReal :=
  Ideal.div (Ideal.exp (s k - (Finset.univ : Finset (Fin 1024)).fold max (Ideal.ofBits .f32 0xFF800000#32) s))
    (∑ k' : Fin 1024, Ideal.exp (s k' - (Finset.univ : Finset (Fin 1024)).fold max (Ideal.ofBits .f32 0xFF800000#32) s))

variable (q v : Sblh.Idx → EReal) (w1 w2 vw : Shh.Idx → EReal) (b1 b2 vb : Sh.Idx → EReal)

/-- The hidden vector at `(b, l, j)`: tanh of (query row · row j of w1 + b1 j) + (value row · row j of w2 + b2 j). -/
def hidden (b : Fin 32) (l j : Fin 1024) : EReal :=
  Ideal.tanh (((∑ h : Fin 1024, q (ix3 b l h) * w1 (ix2 j h)) + b1 (ix1 j))
    + ((∑ h : Fin 1024, v (ix3 b l h) * w2 (ix2 j h)) + b2 (ix1 j)))

/-- The score at `(b, l, o)`: hidden row · row o of vw + vb o. -/
def score (b : Fin 32) (l o : Fin 1024) : EReal :=
  (∑ j : Fin 1024, hidden q v w1 w2 b1 b2 b l j * vw (ix2 o j)) + vb (ix1 o)

/-- The attention weight at `(b, l, k)`: the softmax of row `(b, l)` of the scores. -/
def weight (b : Fin 32) (l k : Fin 1024) : EReal :=
  softmaxRow (fun k' => score q v w1 w2 vw b1 b2 vb b l k') k

/-- The context at `(b, l, h)`: the weights of row `(b, l)` times column `h` of batch `b`'s value matrix. -/
def context (b : Fin 32) (l h : Fin 1024) : EReal :=
  ∑ k : Fin 1024, weight q v w1 w2 vw b1 b2 vb b l k * v (ix3 b k h)

/-- The first result array: the attention weights. -/
def weights : Sblh.Idx → EReal := fun i => weight q v w1 w2 vw b1 b2 vb (i 0) (i 1) (i 2)

/-- The second result array: the context vectors. -/
def contexts : Sblh.Idx → EReal := fun i => context q v w1 w2 vw b1 b2 vb (i 0) (i 1) (i 2)

end Attn

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.LibRowMax.lean ====
/-
  The maximum along the last axis of an array of extended reals, read at an index: the fold of `max` over the
  entries along that axis, started from the value the initial pattern denotes. Stated for the kernel-side
  reduction of an [a, b] array to [a] and for the host-side reduction of an [a, b, c] array to [a, b]; both are
  folds over the same finite set of positions, so a row maximum taken on a tile and the one taken on the whole
  array meet in one expression.
-/
import Idealize.ShloMosaic.PureOps.Ideal.Laws
import Idealize.ShloMosaic.Lib.ValueIdx

noncomputable section

namespace Cert.Lib.RowMax

open Idealize.ShloMosaic Idealize.ShloMosaic.ValueIdx

/-- A maximum over the last axis of an `[a, b]` array, read at `r`: the fold of `max` over row `r`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f : Fin b → EReal => (Finset.univ : Finset (Fin b)).fold max (Ideal.ofBits φ acc) f)
    (funext fun k => congrArg src (funext fun ax => Fin.ext (by
      match ax with
      | ⟨0, _⟩ => rfl
      | ⟨1, _⟩ => rfl)))

/-- The same for a single-precision array whose printed initial pattern is minus infinity's, the proof argument
    typed as printed. -/
theorem rowMax_f32_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) :=
  rowMax_apply src _ h hφ hacc r

/-- The host's reduction by `max` over the last axis of an `[a, b, c]` array from a scalar initial value, read at
    `(p, q)`: the fold of `max` over the entries `(p, q, ·)`. -/
theorem hostRowMax3_apply {a b c : ℕ} {φ : FTy} (x : FVec Ideal ⟨3, ![a, b, c]⟩ φ) (init : (⟨0, ![]⟩ : Shape).Idx → Ideal φ)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce FloatOps.maximumf x init h' hu (ix2 p q)
      = (Finset.univ : Finset (Fin c)).fold max (init ix0) (fun k => x (ix3 p q k)) := by
  refine (Host.reduce_eq_fold_single FloatOps.maximumf x init h' h hu (ix2 p q)).trans ?_
  have e0 : init (Shape.Idx.first hu) = init ix0 := congrArg init (funext fun ax => ax.elim0)
  rw [e0]
  exact congrArg (fun f : Fin c → EReal => (Finset.univ : Finset (Fin c)).fold max (init ix0) f)
    (funext fun k => congrArg x (funext fun ax => Fin.ext (by
      match ax with
      | ⟨0, _⟩ => rfl
      | ⟨1, _⟩ => rfl
      | ⟨2, _⟩ => rfl)))

/-- A fold of `max` started from `b` is at least `b`, so taking the maximum with `b` once more changes nothing. -/
theorem max_fold_self {n : ℕ} (b : EReal) (s : Fin n → EReal) :
    max b ((Finset.univ : Finset (Fin n)).fold max b s) = (Finset.univ : Finset (Fin n)).fold max b s :=
  max_eq_right ((Finset.le_fold_max b).2 (Or.inl le_rfl))

end Cert.Lib.RowMax

end
-- ==== Proof.LibSoftmaxRows.lean ====
/-
  A row softmax of an [a, b] array of extended reals in its usual five steps — row maximum, subtraction, exponential,
  row sum, division — with the row statistics laid out as a column [a, 1] and repeated along each row, read at an
  index (r, k): the exponential of the entry less the row's maximum, over the sum of those exponentials along the row.
-/
import Idealize.ShloMosaic.PureOps.Ideal.Laws
import Idealize.ShloMosaic.Lib.ValueIdx
import proofs.«123392_j10849087389795_2_alg».proof.Proof.LibRowOps
import proofs.«123392_j10849087389795_2_alg».proof.Proof.LibRowMax

noncomputable section

namespace Cert.Lib.SoftmaxRows

open Idealize.ShloMosaic Idealize.ShloMosaic.ValueIdx Cert.Lib.RowOps Cert.Lib.RowMax

/-- A vector of row statistics laid out as a column and repeated along each row reads, at `(r, c)`, the statistic of row `r`. -/
theorem keepdims_apply {α : Type} {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (c : Fin b) :
    broadcastTo ⟨2, ![a, b]⟩ (shapeCast ⟨2, ![a, 1]⟩ v hc) hb (ix2 r c) = v (ix1 r) :=
  (broadcastTo_a1_ab_apply _ hb r c).trans (shapeCast_a_a1_apply v hc r 0)

/-- The five-step row softmax read at `(r, k)`. -/
theorem softmax_rows_apply {a b : ℕ} (s : FVec Ideal ⟨2, ![a, b]⟩ .f32)
    (hr : (⟨2, ![a, b]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r k)
      = Ideal.div
          (Ideal.exp (s (ix2 r k) - (Finset.univ : Finset (Fin b)).fold max (Ideal.ofBits .f32 0xFF800000#32) (fun k' => s (ix2 r k'))))
          (∑ k' : Fin b, Ideal.exp (s (ix2 r k')
            - (Finset.univ : Finset (Fin b)).fold max (Ideal.ofBits .f32 0xFF800000#32) (fun k'' => s (ix2 r k'')))) := by
  have hM : ∀ k' : Fin b,
      broadcastTo ⟨2, ![a, b]⟩ (shapeCast ⟨2, ![a, 1]⟩
          (multiReduction .maximumf [1] ⟨1, ![a]⟩ s 0xFF800000#32 hr hφ hmax) hc) hb (ix2 r k')
        = (Finset.univ : Finset (Fin b)).fold max (Ideal.ofBits .f32 0xFF800000#32) (fun k'' => s (ix2 r k'')) :=
    fun k' => (keepdims_apply _ hc hb r k').trans (rowMax_f32_apply s hr hφ hmax r)
  have hE : ∀ k' : Fin b,
      exp (subf s (broadcastTo ⟨2, ![a, b]⟩ (shapeCast ⟨2, ![a, 1]⟩
          (multiReduction .maximumf [1] ⟨1, ![a]⟩ s 0xFF800000#32 hr hφ hmax) hc) hb)) (ix2 r k')
        = Ideal.exp (s (ix2 r k') - (Finset.univ : Finset (Fin b)).fold max (Ideal.ofBits .f32 0xFF800000#32) (fun k'' => s (ix2 r k''))) :=
    fun k' => congrArg (fun m => Ideal.exp (s (ix2 r k') - m)) (hM k')
  refine (congrArg (Ideal.div _) ((keepdims_apply _ hc hb r k).trans (rowSum_f32_apply _ hr hφ hadd r))).trans ?_
  rw [hE k]
  exact congrArg (Ideal.div _) (Finset.sum_congr rfl fun k' _ => hE k')

end Cert.Lib.SoftmaxRows

end
-- ==== Proof.TileValue.lean ====
/-
  The body's arithmetic on one row tile, read entry by entry on the extended reals.

  A changed float format is the identity there, a matrix product into zeros is a plain sum of products, a bias row
  repeated down the tile reads its own entry, and the row softmax is the one of the specification; so each entry of
  the scores, of the weights block and of the context block is the specification's formula over the tile's operands.
-/
import proofs.«123392_j10849087389795_2_alg».proof.Proof.Pieces
import proofs.«123392_j10849087389795_2_alg».proof.Proof.AttnSpec
import proofs.«123392_j10849087389795_2_alg».proof.Proof.LibRowOps
import proofs.«123392_j10849087389795_2_alg».proof.Proof.LibSoftmaxRows
import Idealize.ShloMosaic.Lib.ValueLayout

noncomputable section

open Idealize.ShloMosaic Idealize.ShloMosaic.ValueIdx

namespace Cert.KernelIdeal.Tile

open Cert.KernelIdeal Cert.KernelIdeal.Gen Cert.KernelIdeal.Pieces

/-- A 512×1024 by 1024×1024 product into zeros at `(r, o)`: the sum over the shared axis. -/
theorem product_apply {φ₁ φ₂ : FTy} (A : FVec Ideal S512x1024 φ₁) (B : FVec Ideal S1024x1024 φ₂) (r : Fin 512) (o : Fin 1024) :
    matmul dot_S512x1024_S1024x1024_S512x1024_1_0_0_1_n_n none A B (constant (F := Ideal) S512x1024 .f32 0x00000000#32) (ix2 r o)
      = ∑ k : Fin 1024, A (ix2 r k) * B (ix2 k o) :=
  Cert.Lib.RowOps.matmul_plain_zero_apply none A B r o

/-- A bias row repeated down the tile reads, at `(r, o)`, its entry `o`. -/
theorem bias_apply (b : Vec Ideal S1x1024 .f32) (r : Fin 512) (o : Fin 1024) :
    broadcastTo S512x1024 (shapeCast S1x1024 b shapeCasts_S1x1024_S1x1024) broadcasts_S1x1024_S512x1024 (ix2 r o)
      = b (ix2 (0 : Fin 1) o) :=
  (broadcastTo_1b_ab_apply _ broadcasts_S1x1024_S512x1024 r o).trans (congrFun (shapeCast_self b shapeCasts_S1x1024_S1x1024) _)

/-- The value copy at `(k, h)` is the value block at `(0, k, h)`. -/
theorem copy_apply (x1 : Vec Ideal S1x1024x1024 .f32) (k h : Fin 1024) :
    k0_pay4 (F := Ideal) x1 (ix2 k h) = x1 (ix3 (0 : Fin 1) k h) := by
  unfold k0_pay4
  exact (congrFun (shapeCast_self _ shapeCasts_S1024x1024_S1024x1024) _).trans
    (shapeCast_1ab_ab_apply x1 shapeCasts_S1x1024x1024_S1024x1024 k h)

/-- The scores of the tile at `(r, o)`, from the query tile `x0`, the tile's rows `xs` of the value copy, the
    transposed weights `x2 x3 x4` and the bias rows `x5 x6 x7`. -/
theorem scores_apply (x0 : Vec Ideal S1x512x1024 .f32) (xs : Vec Ideal S512x1024 .bf16)
    (x2 x3 x4 : Vec Ideal S1024x1024 .bf16) (x5 x6 x7 : Vec Ideal S1x1024 .f32) (r : Fin 512) (o : Fin 1024) :
    k0_pay5 (F := Ideal) x0 xs x2 x3 x4 x5 x6 x7 (ix2 r o)
      = (∑ j : Fin 1024, Ideal.tanh (((∑ h : Fin 1024, x0 (ix3 (0 : Fin 1) r h) * x2 (ix2 h j)) + x5 (ix2 (0 : Fin 1) j))
            + ((∑ h : Fin 1024, xs (ix2 r h) * x3 (ix2 h j)) + x6 (ix2 (0 : Fin 1) j))) * x4 (ix2 j o))
          + x7 (ix2 (0 : Fin 1) o) := by
  unfold k0_pay5
  refine congrArg₂ (· + ·) ((product_apply _ _ r o).trans (Finset.sum_congr rfl fun j _ => congrArg₂ (· * ·) ?_ ?_))
    (bias_apply x7 r o)
  · refine congrArg Ideal.tanh (congrArg₂ (· + ·) (congrArg₂ (· + ·) ((product_apply _ _ r j).trans
      (Finset.sum_congr rfl fun h _ => congrArg₂ (· * ·) (shapeCast_1ab_ab_apply x0 shapeCasts_S1x512x1024_S512x1024 r h)
        (congrFun (shapeCast_self x2 shapeCasts_S1024x1024_S1024x1024) _))) (bias_apply x5 r j))
      (congrArg₂ (· + ·) ((product_apply _ _ r j).trans
      (Finset.sum_congr rfl fun h _ => congrArg₂ (· * ·) rfl
        (congrFun (shapeCast_self x3 shapeCasts_S1024x1024_S1024x1024) _))) (bias_apply x6 r j)))
  · exact congrFun (shapeCast_self x4 shapeCasts_S1024x1024_S1024x1024) _

/-- The weights block at `(0, r, k)`: the softmax of row `r` of the scores. -/
theorem weights_apply (s : FVec Ideal S512x1024 .f32) (u : Fin 1) (r : Fin 512) (k : Fin 1024) :
    k0_pay2 (F := Ideal) s (ix3 u r k) = Attn.softmaxRow (fun k' => s (ix2 r k')) k := by
  unfold k0_pay2 k0_pay1
  exact (shapeCast_ab_1ab_apply _ shapeCasts_S512x1024_S1x512x1024 u r k).trans
    (Cert.Lib.SoftmaxRows.softmax_rows_apply s reduces_S512x1024_S512 (.inl rfl) rfl rfl shapeCasts_S512_S512x1
      broadcasts_S512x1_S512x1024 r k)

/-- The context block at `(0, r, h)`: the softmax of row `r` of the scores times column `h` of the value copy. -/
theorem context_apply (s : FVec Ideal S512x1024 .f32) (xv : Vec Ideal S1024x1024 .bf16) (u : Fin 1) (r : Fin 512) (h : Fin 1024) :
    k0_pay3 (F := Ideal) s xv (ix3 u r h) = ∑ k : Fin 1024, Attn.softmaxRow (fun k' => s (ix2 r k')) k * xv (ix2 k h) := by
  unfold k0_pay3
  refine (shapeCast_ab_1ab_apply _ shapeCasts_S512x1024_S1x512x1024 u r h).trans ((product_apply _ _ r h).trans
    (Finset.sum_congr rfl fun k _ => congrArg₂ (· * ·) ?_ rfl))
  unfold k0_pay1
  exact Cert.Lib.SoftmaxRows.softmax_rows_apply s reduces_S512x1024_S512 (.inl rfl) rfl rfl shapeCasts_S512_S512x1
      broadcasts_S512x1_S512x1024 r k

/-- The tile's rows of a 1024-row matrix: row `r` of tile `l` is row `512·l + r`. -/
theorem tileRows_apply (i : grid0.Coords) (l : Fin 2) (hi : (i 1).val = l.val) (X : Vec Ideal S1024x1024 .bf16)
    (r : Fin 512) (h : Fin 1024) :
    tileRows i X (ix2 r h) = X (ix2 (⟨512 * l.val + r.val, by have := l.isLt; have := r.isLt; omega⟩ : Fin 1024) h) := by
  show X _ = X _
  refine congrArg X (funext fun a => Fin.ext ?_)
  have hl : l.val = 0 ∨ l.val = 1 := by have := l.isLt; omega
  match a with
  | ⟨0, _⟩ =>
    show k0_off1 i 0 + 1 * r.val = 512 * l.val + r.val
    have e : k0_off1 i 0 = 512 * l.val := by
      unfold k0_off1
      rw [hi]
      rcases hl with h0 | h1
      · rw [h0]; rfl
      · rw [h1]; rfl
    omega
  | ⟨1, _⟩ =>
    show k0_off1 i 1 + 1 * h.val = h.val
    have e : k0_off1 i 1 = 0 := rfl
    omega

section Tile

variable (i : grid0.Coords) (l : Fin 2) (hi : (i 1).val = l.val) (b : Fin 32)
  (q v : Attn.Sblh.Idx → EReal) (w1 w2 vw : Attn.Shh.Idx → EReal) (b1 b2 vb : Attn.Sh.Idx → EReal)
  (x0 : Vec Ideal S1x512x1024 .f32) (xv : Vec Ideal S1024x1024 .bf16) (x2 x3 x4 : Vec Ideal S1024x1024 .bf16)
  (x5 x6 x7 : Vec Ideal S1x1024 .f32)
  (h0 : ∀ (r : Fin 512) (h : Fin 1024), x0 (ix3 (0 : Fin 1) r h)
    = q (ix3 b (⟨512 * l.val + r.val, by have := l.isLt; have := r.isLt; omega⟩ : Fin 1024) h))
  (hv : ∀ k h : Fin 1024, xv (ix2 k h) = v (ix3 b k h))
  (h2 : ∀ h j : Fin 1024, x2 (ix2 h j) = w1 (ix2 j h)) (h3 : ∀ h j : Fin 1024, x3 (ix2 h j) = w2 (ix2 j h))
  (h4 : ∀ h j : Fin 1024, x4 (ix2 h j) = vw (ix2 j h))
  (h5 : ∀ j : Fin 1024, x5 (ix2 (0 : Fin 1) j) = b1 (ix1 j)) (h6 : ∀ j : Fin 1024, x6 (ix2 (0 : Fin 1) j) = b2 (ix1 j))
  (h7 : ∀ j : Fin 1024, x7 (ix2 (0 : Fin 1) j) = vb (ix1 j))

include hi h0 hv h2 h3 h4 h5 h6 h7

/-- With the tile's operands read off the argument arrays (the query tile's rows `512·l + ·` of batch `b`, the copy
    batch `b`'s value matrix, the weights transposed, the biases as rows), the tile's scores are the specification's
    scores of rows `512·l + ·` of batch `b`. -/
theorem tile_scores_eq (r : Fin 512) (o : Fin 1024) :
    tileScores i x0 xv x2 x3 x4 x5 x6 x7 (ix2 r o)
      = Attn.score q v w1 w2 vw b1 b2 vb b (⟨512 * l.val + r.val, by have := l.isLt; have := r.isLt; omega⟩ : Fin 1024) o := by
  refine (scores_apply x0 (tileRows i xv) x2 x3 x4 x5 x6 x7 r o).trans ?_
  unfold Attn.score Attn.hidden
  simp only [h0, h2, h3, h4, h5, h6, h7, tileRows_apply i l hi xv, hv]

/-- … the weights block is the specification's weights of those rows, -/
theorem tile_weights_eq (u : Fin 1) (r : Fin 512) (k : Fin 1024) :
    k0_pay2 (F := Ideal) (tileScores i x0 xv x2 x3 x4 x5 x6 x7) (ix3 u r k)
      = Attn.weight q v w1 w2 vw b1 b2 vb b (⟨512 * l.val + r.val, by have := l.isLt; have := r.isLt; omega⟩ : Fin 1024) k := by
  refine (weights_apply _ u r k).trans ?_
  unfold Attn.weight
  exact congrArg (fun s => Attn.softmaxRow s k) (funext fun k' =>
    tile_scores_eq i l hi b q v w1 w2 vw b1 b2 vb x0 xv x2 x3 x4 x5 x6 x7 h0 hv h2 h3 h4 h5 h6 h7 r k')

/-- … and the context block the specification's contexts of those rows. -/
theorem tile_context_eq (u : Fin 1) (r : Fin 512) (h : Fin 1024) :
    k0_pay3 (F := Ideal) (tileScores i x0 xv x2 x3 x4 x5 x6 x7) xv (ix3 u r h)
      = Attn.context q v w1 w2 vw b1 b2 vb b (⟨512 * l.val + r.val, by have := l.isLt; have := r.isLt; omega⟩ : Fin 1024) h := by
  refine (context_apply _ xv u r h).trans ?_
  unfold Attn.context Attn.weight
  refine Finset.sum_congr rfl fun k _ => congrArg₂ (· * ·) ?_ (hv k h)
  exact congrArg (fun s => Attn.softmaxRow s k) (funext fun k' =>
    tile_scores_eq i l hi b q v w1 w2 vw b1 b2 vb x0 xv x2 x3 x4 x5 x6 x7 h0 hv h2 h3 h4 h5 h6 h7 r k')

end Tile

end Cert.KernelIdeal.Tile

end
-- ==== Proof.BlockReads.lean ====
/-
  The blocks a grid point reads, as entries of the argument arrays.

  Grid point `t` is batch `t / 2`, row tile `t % 2`. Its query block is rows `512·(t % 2) + ·` of that batch's
  query matrix, its value block that batch's whole value matrix; the weight blocks are the transposed weights and the
  bias blocks the biases as rows, at every point.
-/
import proofs.«123392_j10849087389795_2_alg».proof.Proof.Gen.KernelIdeal.Value
import proofs.«123392_j10849087389795_2_alg».proof.Proof.TileValue
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

/-- The specification's weights of the argument arrays device `c` holds. -/
abbrev weightsOf (c : Dev nD) : S32x1024x1024.Idx → EReal :=
  Attn.weights (m ((c : Thread nD τ).loc main_arg0)) (m ((c : Thread nD τ).loc main_arg2)) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8))

/-- The specification's contexts of the argument arrays device `c` holds. -/
abbrev contextsOf (c : Dev nD) : S32x1024x1024.Idx → EReal :=
  Attn.contexts (m ((c : Thread nD τ).loc main_arg0)) (m ((c : Thread nD τ).loc main_arg2)) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8))

/-! ## Where each point's blocks sit -/

/-- The block indices of the batched windows, and the row tile the body sees, over the 64 points: batch `t / 2`,
    tile `t % 2`. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_8.index t (0 : Fin 3) = t.val / 2 ∧ win0_8.index t (1 : Fin 3) = t.val % 2 ∧ win0_8.index t (2 : Fin 3) = 0
    ∧ win0_9.index t (0 : Fin 3) = t.val / 2 ∧ win0_9.index t (1 : Fin 3) = t.val % 2 ∧ win0_9.index t (2 : Fin 3) = 0
    ∧ ((grid0.coords t) 1).val = t.val % 2 :=
  (by decide +kernel : ∀ t : Fin grid0.N, _)

/-- The weight and bias windows never move. -/
theorem idx_facts' : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The arrays the host prepares before the call: transposed weights, biases as rows -/

theorem V_w1 (c : Dev nD) : (V m c main_v1 : S1024x1024.Idx → EReal)
    = truncf (F := Ideal) .bf16 (transpose S1024x1024 [1, 0] (m ((c : Thread nD τ).loc main_arg3)) transposes_S1024x1024_S1024x1024_1_0) bitsLt_bf16_f32 := by
  dsimp only [Gen.V, Gen.hostOps0]; after_results; try rfl

theorem V_w2 (c : Dev nD) : (V m c main_v3 : S1024x1024.Idx → EReal)
    = truncf (F := Ideal) .bf16 (transpose S1024x1024 [1, 0] (m ((c : Thread nD τ).loc main_arg5)) transposes_S1024x1024_S1024x1024_1_0) bitsLt_bf16_f32 := by
  dsimp only [Gen.V, Gen.hostOps0]; after_results; try rfl

theorem V_vw (c : Dev nD) : (V m c main_v5 : S1024x1024.Idx → EReal)
    = truncf (F := Ideal) .bf16 (transpose S1024x1024 [1, 0] (m ((c : Thread nD τ).loc main_arg7)) transposes_S1024x1024_S1024x1024_1_0) bitsLt_bf16_f32 := by
  dsimp only [Gen.V, Gen.hostOps0]; after_results; try rfl

theorem V_b1 (c : Dev nD) : (V m c main_v6 : S1x1024.Idx → EReal)
    = shapeCast S1x1024 (m ((c : Thread nD τ).loc main_arg4)) shapeCasts_S1024_S1x1024 := by
  dsimp only [Gen.V, Gen.hostOps0]; after_results; try rfl

theorem V_b2 (c : Dev nD) : (V m c main_v7 : S1x1024.Idx → EReal)
    = shapeCast S1x1024 (m ((c : Thread nD τ).loc main_arg6)) shapeCasts_S1024_S1x1024 := by
  dsimp only [Gen.V, Gen.hostOps0]; after_results; try rfl

theorem V_vb (c : Dev nD) : (V m c main_v8 : S1x1024.Idx → EReal)
    = shapeCast S1x1024 (m ((c : Thread nD τ).loc main_arg8)) shapeCasts_S1024_S1x1024 := by
  dsimp only [Gen.V, Gen.hostOps0]; after_results; try rfl

/-! ## The input blocks of a point, read off the arguments -/

/-- The query block: rows `512·l + ·` of batch `b`. -/
theorem qblk_apply (c : Dev nD) (t : Fin cfg0.N) (b : Fin 32) (hb : b.val = t.val / 2) (l : Fin 2) (hl : l.val = t.val % 2)
    (u : Fin 1) (r : Fin 512) (h : Fin 1024) :
    (iblk m c 0 t : Vec Ideal S1x512x1024 .f32) (ix3 u r h)
      = m ((c : Thread nD τ).loc main_arg0) (ix3 b (⟨512 * l.val + r.val, by have := l.isLt; have := r.isLt; omega⟩ : Fin 1024) h) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * u.val = b.val; have := u.isLt; omega
  | ⟨1, _⟩ => show win0_0.index t (1 : Fin 3) * 512 + 1 * r.val = 512 * l.val + r.val; omega
  | ⟨2, _⟩ => show win0_0.index t (2 : Fin 3) * 1024 + 1 * h.val = h.val; omega

/-- The value block: batch `b`'s whole value matrix. -/
theorem vblk_apply (c : Dev nD) (t : Fin cfg0.N) (b : Fin 32) (hb : b.val = t.val / 2) (u : Fin 1) (k h : Fin 1024) :
    (iblk m c 1 t : Vec Ideal S1x1024x1024 .f32) (ix3 u k h) = m ((c : Thread nD τ).loc main_arg2) (ix3 b k h) := by
  obtain ⟨-, -, -, e0, e1, e2, -⟩ := idx_facts t
  unfold iblk
  rw [View.read_apply]
  show V m c main_arg2 _ = _
  rw [V_main_arg2]
  refine congrArg _ (funext fun a => Fin.ext ?_)
  match a with
  | ⟨0, _⟩ => show win0_1.index t (0 : Fin 3) * 1 + 1 * u.val = b.val; have := u.isLt; omega
  | ⟨1, _⟩ => show win0_1.index t (1 : Fin 3) * 1024 + 1 * k.val = k.val; omega
  | ⟨2, _⟩ => show win0_1.index t (2 : Fin 3) * 1024 + 1 * h.val = h.val; omega

/-- The first weight block is w1 transposed. -/
theorem w1blk_apply (c : Dev nD) (t : Fin cfg0.N) (h j : Fin 1024) :
    (iblk m c 2 t : Vec Ideal S1024x1024 .bf16) (ix2 h j) = m ((c : Thread nD τ).loc main_arg3) (ix2 j h) := by
  have e := idx_facts' t
  unfold iblk
  rw [View.read_apply]
  show V m c main_v1 _ = _
  rw [V_w1]
  show transpose S1024x1024 [1, 0] (m ((c : Thread nD τ).loc main_arg3)) transposes_S1024x1024_S1024x1024_1_0 _ = _
  refine (congrArg _ (funext fun a => Fin.ext ?_)).trans
    (transpose_ix2_apply (m ((c : Thread nD τ).loc main_arg3)) transposes_S1024x1024_S1024x1024_1_0 h j)
  match a with
  | ⟨0, _⟩ => show win0_2.index t (0 : Fin 2) * 1024 + 1 * h.val = h.val; omega
  | ⟨1, _⟩ => show win0_2.index t (1 : Fin 2) * 1024 + 1 * j.val = j.val; omega

/-- The second weight block is w2 transposed. -/
theorem w2blk_apply (c : Dev nD) (t : Fin cfg0.N) (h j : Fin 1024) :
    (iblk m c 3 t : Vec Ideal S1024x1024 .bf16) (ix2 h j) = m ((c : Thread nD τ).loc main_arg5) (ix2 j h) := by
  have e := idx_facts' t
  unfold iblk
  rw [View.read_apply]
  show V m c main_v3 _ = _
  rw [V_w2]
  show transpose S1024x1024 [1, 0] (m ((c : Thread nD τ).loc main_arg5)) transposes_S1024x1024_S1024x1024_1_0 _ = _
  refine (congrArg _ (funext fun a => Fin.ext ?_)).trans
    (transpose_ix2_apply (m ((c : Thread nD τ).loc main_arg5)) transposes_S1024x1024_S1024x1024_1_0 h j)
  match a with
  | ⟨0, _⟩ => show win0_3.index t (0 : Fin 2) * 1024 + 1 * h.val = h.val; omega
  | ⟨1, _⟩ => show win0_3.index t (1 : Fin 2) * 1024 + 1 * j.val = j.val; omega

/-- The third weight block is vw transposed. -/
theorem vwblk_apply (c : Dev nD) (t : Fin cfg0.N) (h j : Fin 1024) :
    (iblk m c 4 t : Vec Ideal S1024x1024 .bf16) (ix2 h j) = m ((c : Thread nD τ).loc main_arg7) (ix2 j h) := by
  have e := idx_facts' t
  unfold iblk
  rw [View.read_apply]
  show V m c main_v5 _ = _
  rw [V_vw]
  show transpose S1024x1024 [1, 0] (m ((c : Thread nD τ).loc main_arg7)) transposes_S1024x1024_S1024x1024_1_0 _ = _
  refine (congrArg _ (funext fun a => Fin.ext ?_)).trans
    (transpose_ix2_apply (m ((c : Thread nD τ).loc main_arg7)) transposes_S1024x1024_S1024x1024_1_0 h j)
  match a with
  | ⟨0, _⟩ => show win0_4.index t (0 : Fin 2) * 1024 + 1 * h.val = h.val; omega
  | ⟨1, _⟩ => show win0_4.index t (1 : Fin 2) * 1024 + 1 * j.val = j.val; omega

/-- The first bias block is b1 as a row. -/
theorem b1blk_apply (c : Dev nD) (t : Fin cfg0.N) (j : Fin 1024) :
    (iblk m c 5 t : Vec Ideal S1x1024 .f32) (ix2 (0 : Fin 1) j) = m ((c : Thread nD τ).loc main_arg4) (ix1 j) := by
  have e := idx_facts' t
  unfold iblk
  rw [View.read_apply]
  show V m c main_v6 _ = _
  rw [V_b1]
  refine (congrArg _ (funext fun a => Fin.ext ?_)).trans
    (shapeCast_a_1a_apply (m ((c : Thread nD τ).loc main_arg4)) shapeCasts_S1024_S1x1024 (0 : Fin 1) j)
  match a with
  | ⟨0, _⟩ => show win0_5.index t (0 : Fin 2) * 1 + 1 * (0 : Fin 1).val = (0 : Fin 1).val; omega
  | ⟨1, _⟩ => show win0_5.index t (1 : Fin 2) * 1024 + 1 * j.val = j.val; omega

/-- The second bias block is b2 as a row. -/
theorem b2blk_apply (c : Dev nD) (t : Fin cfg0.N) (j : Fin 1024) :
    (iblk m c 6 t : Vec Ideal S1x1024 .f32) (ix2 (0 : Fin 1) j) = m ((c : Thread nD τ).loc main_arg6) (ix1 j) := by
  have e := idx_facts' t
  unfold iblk
  rw [View.read_apply]
  show V m c main_v7 _ = _
  rw [V_b2]
  refine (congrArg _ (funext fun a => Fin.ext ?_)).trans
    (shapeCast_a_1a_apply (m ((c : Thread nD τ).loc main_arg6)) shapeCasts_S1024_S1x1024 (0 : Fin 1) j)
  match a with
  | ⟨0, _⟩ => show win0_6.index t (0 : Fin 2) * 1 + 1 * (0 : Fin 1).val = (0 : Fin 1).val; omega
  | ⟨1, _⟩ => show win0_6.index t (1 : Fin 2) * 1024 + 1 * j.val = j.val; omega

/-- The third bias block is vb as a row. -/
theorem vbblk_apply (c : Dev nD) (t : Fin cfg0.N) (j : Fin 1024) :
    (iblk m c 7 t : Vec Ideal S1x1024 .f32) (ix2 (0 : Fin 1) j) = m ((c : Thread nD τ).loc main_arg8) (ix1 j) := by
  have e := idx_facts' t
  unfold iblk
  rw [View.read_apply]
  show V m c main_v8 _ = _
  rw [V_vb]
  refine (congrArg _ (funext fun a => Fin.ext ?_)).trans
    (shapeCast_a_1a_apply (m ((c : Thread nD τ).loc main_arg8)) shapeCasts_S1024_S1x1024 (0 : Fin 1) j)
  match a with
  | ⟨0, _⟩ => show win0_7.index t (0 : Fin 2) * 1 + 1 * (0 : Fin 1).val = (0 : Fin 1).val; omega
  | ⟨1, _⟩ => show win0_7.index t (1 : Fin 2) * 1024 + 1 * j.val = j.val; omega

end Cert.KernelIdeal.Blocks

end
-- ==== Proof.BlockValues.lean ====
/-
  From tiles to arrays.

  The value copy the body keeps holds the point's batch's value matrix after either tile of the batch: the first
  refreshes it, the second leaves it. So each point writes back, to rows `512·(t % 2) + ·` of batch `t / 2` of the two
  results, the specification's weights and contexts; the 64 blocks tile the results, which therefore end as the
  specification's arrays.
-/
import proofs.«123392_j10849087389795_2_alg».proof.Proof.BlockReads

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

/-! ## The value copy carried between the two tiles of a batch -/

/-- After a first tile the copy holds the batch's value matrix: the tile refreshed it. -/
theorem copy_first_at (c : Dev nD) (t : Fin cfg0.N) (h0 : t.val % 2 = 0) (b : Fin 32) (hb : b.val = t.val / 2) (k h : Fin 1024) :
    (outsAt0 m c t.val t.isLt).2.2 (ix2 k h) = m ((c : Thread nD τ).loc main_arg2) (ix3 b k h) := by
  rw [outsAt0_A m c t h0]
  dsimp only
  rw [Pieces.copy_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)]
  exact (Tile.copy_apply (iblk m c 1 t) k h).trans (vblk_apply m c t b hb 0 k h)

/-- After any point the copy holds the point's batch's value matrix: a second tile leaves what the first stored. -/
theorem copy_at (c : Dev nD) (t : Fin cfg0.N) (b : Fin 32) (hb : b.val = t.val / 2) (k h : Fin 1024) :
    (outsAt0 m c t.val t.isLt).2.2 (ix2 k h) = m ((c : Thread nD τ).loc main_arg2) (ix3 b k h) := by
  by_cases h0 : t.val % 2 = 0
  · exact copy_first_at m c t h0 b hb k h
  · have hlt : t.val - 1 < cfg0.N := Nat.lt_of_le_of_lt (Nat.sub_le _ _) t.isLt
    rw [outsAt0_B m c t h0]
    dsimp only
    unfold sout0_B_0
    exact copy_first_at m c ⟨t.val - 1, hlt⟩ (by show (t.val - 1) % 2 = 0; omega) b (by show b.val = (t.val - 1) / 2; omega) k h

/-! ## What a point leaves in the two output blocks -/

/-- The weights block after point `t`: the specification's weights of rows `512·l + ·` of batch `b`. -/
theorem weights_block (c : Dev nD) (t : Fin cfg0.N) (b : Fin 32) (hb : b.val = t.val / 2) (l : Fin 2) (hl : l.val = t.val % 2) :
    (outsAt0 m c t.val t.isLt).1 = fun y : S1x512x1024.Idx => weightsOf m c (ix3 b (⟨512 * l.val + (y 1).val, by have := l.isLt; have : (y 1).val < 512 := (y 1).isLt; omega⟩ : Fin 1024) (y 2)) := by
  have hi : ((grid0.coords t) 1).val = l.val := by rw [hl]; exact (idx_facts t).2.2.2.2.2.2.2.2.2.2.2.2
  by_cases h0 : t.val % 2 = 0
  · rw [outsAt0_A m c t h0]
    dsimp only
    rw [Pieces.weights_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)]
    funext y
    obtain ⟨u, r, k, rfl⟩ : ∃ (u : Fin 1) (r : Fin 512) (k : Fin 1024), y = ix3 u r k := ⟨y 0, y 1, y 2, eq_ix3 y⟩
    exact Tile.tile_weights_eq (grid0.coords t) l hi b (m ((c : Thread nD τ).loc main_arg0)) (m ((c : Thread nD τ).loc main_arg2)) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8))
      (iblk m c 0 t) (k0_pay4 (iblk m c 1 t)) (iblk m c 2 t) (iblk m c 3 t) (iblk m c 4 t) (iblk m c 5 t) (iblk m c 6 t) (iblk m c 7 t)
      (fun r h => qblk_apply m c t b hb l hl 0 r h) (fun k h => (Tile.copy_apply (iblk m c 1 t) k h).trans (vblk_apply m c t b hb 0 k h))
      (fun h j => w1blk_apply m c t h j) (fun h j => w2blk_apply m c t h j) (fun h j => vwblk_apply m c t h j)
      (fun j => b1blk_apply m c t j) (fun j => b2blk_apply m c t j) (fun j => vbblk_apply m c t j) u r k
  · have hlt : t.val - 1 < cfg0.N := Nat.lt_of_le_of_lt (Nat.sub_le _ _) t.isLt
    rw [outsAt0_B m c t h0]
    dsimp only
    rw [Pieces.weights_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
      (outsAt0 m c (t.val - 1) hlt).2.2]
    funext y
    obtain ⟨u, r, k, rfl⟩ : ∃ (u : Fin 1) (r : Fin 512) (k : Fin 1024), y = ix3 u r k := ⟨y 0, y 1, y 2, eq_ix3 y⟩
    exact Tile.tile_weights_eq (grid0.coords t) l hi b (m ((c : Thread nD τ).loc main_arg0)) (m ((c : Thread nD τ).loc main_arg2)) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8))
      (iblk m c 0 t) (outsAt0 m c (t.val - 1) hlt).2.2 (iblk m c 2 t) (iblk m c 3 t) (iblk m c 4 t) (iblk m c 5 t) (iblk m c 6 t) (iblk m c 7 t)
      (fun r h => qblk_apply m c t b hb l hl 0 r h) (fun k h => copy_at m c ⟨t.val - 1, hlt⟩ b (by show b.val = (t.val - 1) / 2; omega) k h)
      (fun h j => w1blk_apply m c t h j) (fun h j => w2blk_apply m c t h j) (fun h j => vwblk_apply m c t h j)
      (fun j => b1blk_apply m c t j) (fun j => b2blk_apply m c t j) (fun j => vbblk_apply m c t j) u r k

/-- The context block after point `t`: the specification's contexts of rows `512·l + ·` of batch `b`. -/
theorem context_block (c : Dev nD) (t : Fin cfg0.N) (b : Fin 32) (hb : b.val = t.val / 2) (l : Fin 2) (hl : l.val = t.val % 2) :
    (outsAt0 m c t.val t.isLt).2.1 = fun y : S1x512x1024.Idx => contextsOf m c (ix3 b (⟨512 * l.val + (y 1).val, by have := l.isLt; have : (y 1).val < 512 := (y 1).isLt; omega⟩ : Fin 1024) (y 2)) := by
  have hi : ((grid0.coords t) 1).val = l.val := by rw [hl]; exact (idx_facts t).2.2.2.2.2.2.2.2.2.2.2.2
  by_cases h0 : t.val % 2 = 0
  · rw [outsAt0_A m c t h0]
    dsimp only
    rw [Pieces.context_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)]
    funext y
    obtain ⟨u, r, k, rfl⟩ : ∃ (u : Fin 1) (r : Fin 512) (k : Fin 1024), y = ix3 u r k := ⟨y 0, y 1, y 2, eq_ix3 y⟩
    exact Tile.tile_context_eq (grid0.coords t) l hi b (m ((c : Thread nD τ).loc main_arg0)) (m ((c : Thread nD τ).loc main_arg2)) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8))
      (iblk m c 0 t) (k0_pay4 (iblk m c 1 t)) (iblk m c 2 t) (iblk m c 3 t) (iblk m c 4 t) (iblk m c 5 t) (iblk m c 6 t) (iblk m c 7 t)
      (fun r h => qblk_apply m c t b hb l hl 0 r h) (fun k h => (Tile.copy_apply (iblk m c 1 t) k h).trans (vblk_apply m c t b hb 0 k h))
      (fun h j => w1blk_apply m c t h j) (fun h j => w2blk_apply m c t h j) (fun h j => vwblk_apply m c t h j)
      (fun j => b1blk_apply m c t j) (fun j => b2blk_apply m c t j) (fun j => vbblk_apply m c t j) u r k
  · have hlt : t.val - 1 < cfg0.N := Nat.lt_of_le_of_lt (Nat.sub_le _ _) t.isLt
    rw [outsAt0_B m c t h0]
    dsimp only
    rw [Pieces.context_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
      (outsAt0 m c (t.val - 1) hlt).2.2]
    funext y
    obtain ⟨u, r, k, rfl⟩ : ∃ (u : Fin 1) (r : Fin 512) (k : Fin 1024), y = ix3 u r k := ⟨y 0, y 1, y 2, eq_ix3 y⟩
    exact Tile.tile_context_eq (grid0.coords t) l hi b (m ((c : Thread nD τ).loc main_arg0)) (m ((c : Thread nD τ).loc main_arg2)) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8))
      (iblk m c 0 t) (outsAt0 m c (t.val - 1) hlt).2.2 (iblk m c 2 t) (iblk m c 3 t) (iblk m c 4 t) (iblk m c 5 t) (iblk m c 6 t) (iblk m c 7 t)
      (fun r h => qblk_apply m c t b hb l hl 0 r h) (fun k h => copy_at m c ⟨t.val - 1, hlt⟩ b (by show b.val = (t.val - 1) / 2; omega) k h)
      (fun h j => w1blk_apply m c t h j) (fun h j => w2blk_apply m c t h j) (fun h j => vwblk_apply m c t h j)
      (fun j => b1blk_apply m c t j) (fun j => b2blk_apply m c t j) (fun j => vbblk_apply m c t j) u r k

end Cert.KernelIdeal.Blocks

end
-- ==== Proof.ArrayValues.lean ====
/-
  The two result arrays after the run.

  Each grid point writes back its weights block and its context block to rows `512·(t % 2) + ·` of batch `t / 2`; the
  blocks hold the specification's entries there, and the 64 blocks tile each result: both results end as the
  specification's arrays of the arguments, which the run leaves as they were.
-/
import proofs.«123392_j10849087389795_2_alg».proof.Proof.BlockValues

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

/-! ## The attention weights -/

/-- An index of result 0 is in point `t`'s block iff each coordinate is in the block's range on its axis. -/
theorem mem_blk8 (t : Fin cfg0.N) (i : S32x1024x1024.Idx) :
    i ∈ ((cfg0.win 8).blk t).view.set ↔ ∀ a : Fin 3, win0_8.index t a * S1x512x1024.size a ≤ (i a).val
      ∧ (i a).val < win0_8.index t a * S1x512x1024.size a + S1x512x1024.size a := by
  show i ∈ ((View.whole main_v9_0).slice (win0_8.rect t)).set ↔ _
  rw [View.set_slice_whole, Rect.mem_set_unit]
  exact Iff.rfl

/-- What point `t` writes back to the first result is block `t` of the specification's weights. -/
theorem flushed8_eq (c : Dev nD) (t : Fin cfg0.N) :
    (dats m 0 c).flushed 8 t = ((cfg0.win 8).blk t).view.read (Elt Ideal) (weightsOf m c) := by
  have hN : cfg0.N = 64 := N_0
  have ht := t.isLt
  have e := idx_facts t
  rw [Cert.KernelIdeal.Value.flushed8 m c t,
    weights_block m c t ⟨t.val / 2, by omega⟩ rfl ⟨t.val % 2, by omega⟩ rfl]
  funext j
  show weightsOf m c (ix3 _ _ _) = weightsOf m c (((cfg0.win 8).blk t).view.emb j)
  refine congrArg (weightsOf m c) (funext fun a => Fin.ext ?_)
  match a with
  | ⟨0, _⟩ => show t.val / 2 = win0_8.index t (0 : Fin 3) * 1 + 1 * (j 0).val; have : (j 0).val < 1 := (j 0).isLt; omega
  | ⟨1, _⟩ => show 512 * (t.val % 2) + (j 1).val = win0_8.index t (1 : Fin 3) * 512 + 1 * (j 1).val; omega
  | ⟨2, _⟩ => show (j 2).val = win0_8.index t (2 : Fin 3) * 1024 + 1 * (j 2).val; omega

/-- Every index of result 0 is in the block of the point of its batch and row tile. -/
theorem cover8 (i : S32x1024x1024.Idx) :
    ∃ t : Fin cfg0.N, (cfg0.win 8).flush t = true ∧ i ∈ ((cfg0.win 8).blk t).view.set := by
  have hN : cfg0.N = 64 := N_0
  have h0 : (i 0).val < 32 := (i 0).isLt
  have h1 : (i 1).val < 1024 := (i 1).isLt
  have h2 : (i 2).val < 1024 := (i 2).isLt
  obtain ⟨T, hT⟩ : ∃ T : Fin cfg0.N, T.val = 2 * (i 0).val + (i 1).val / 512 := ⟨⟨2 * (i 0).val + (i 1).val / 512, by omega⟩, rfl⟩
  have e := idx_facts T
  refine ⟨T, flush0_8 T, ?_⟩
  rw [mem_blk8]
  intro a
  match a with
  | ⟨0, _⟩ => show win0_8.index T (0 : Fin 3) * 1 ≤ (i 0).val ∧ (i 0).val < win0_8.index T (0 : Fin 3) * 1 + 1; omega
  | ⟨1, _⟩ => show win0_8.index T (1 : Fin 3) * 512 ≤ (i 1).val ∧ (i 1).val < win0_8.index T (1 : Fin 3) * 512 + 512; omega
  | ⟨2, _⟩ => show win0_8.index T (2 : Fin 3) * 1024 ≤ (i 2).val ∧ (i 2).val < win0_8.index T (2 : Fin 3) * 1024 + 1024; omega

/-- So result 0 ends as the specification's array. -/
theorem final8 (c : Dev nD) : (dats m 0 c).arrAt 8 cfg0.N = weightsOf m c :=
  (dats m 0 c).arrAt_eq_of_cover 8 (weightsOf m c) (fun t _ => flushed8_eq m c t) cover8

/-! ## The context vectors -/

/-- An index of result 1 is in point `t`'s block iff each coordinate is in the block's range on its axis. -/
theorem mem_blk9 (t : Fin cfg0.N) (i : S32x1024x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v9_1).slice (win0_9.rect t)).set ↔ _
  rw [View.set_slice_whole, Rect.mem_set_unit]
  exact Iff.rfl

/-- What point `t` writes back to the second result is block `t` of the specification's contexts. -/
theorem flushed9_eq (c : Dev nD) (t : Fin cfg0.N) :
    (dats m 0 c).flushed 9 t = ((cfg0.win 9).blk t).view.read (Elt Ideal) (contextsOf m c) := by
  have hN : cfg0.N = 64 := N_0
  have ht := t.isLt
  have e := idx_facts t
  rw [Cert.KernelIdeal.Value.flushed9 m c t,
    context_block m c t ⟨t.val / 2, by omega⟩ rfl ⟨t.val % 2, by omega⟩ rfl]
  funext j
  show contextsOf m c (ix3 _ _ _) = contextsOf m c (((cfg0.win 9).blk t).view.emb j)
  refine congrArg (contextsOf m c) (funext fun a => Fin.ext ?_)
  match a with
  | ⟨0, _⟩ => show t.val / 2 = win0_9.index t (0 : Fin 3) * 1 + 1 * (j 0).val; have : (j 0).val < 1 := (j 0).isLt; omega
  | ⟨1, _⟩ => show 512 * (t.val % 2) + (j 1).val = win0_9.index t (1 : Fin 3) * 512 + 1 * (j 1).val; omega
  | ⟨2, _⟩ => show (j 2).val = win0_9.index t (2 : Fin 3) * 1024 + 1 * (j 2).val; omega

/-- Every index of result 1 is in the block of the point of its batch and row tile. -/
theorem cover9 (i : S32x1024x1024.Idx) :
    ∃ t : Fin cfg0.N, (cfg0.win 9).flush t = true ∧ i ∈ ((cfg0.win 9).blk t).view.set := by
  have hN : cfg0.N = 64 := N_0
  have h0 : (i 0).val < 32 := (i 0).isLt
  have h1 : (i 1).val < 1024 := (i 1).isLt
  have h2 : (i 2).val < 1024 := (i 2).isLt
  obtain ⟨T, hT⟩ : ∃ T : Fin cfg0.N, T.val = 2 * (i 0).val + (i 1).val / 512 := ⟨⟨2 * (i 0).val + (i 1).val / 512, by omega⟩, rfl⟩
  have e := idx_facts T
  refine ⟨T, flush0_9 T, ?_⟩
  rw [mem_blk9]
  intro a
  match a with
  | ⟨0, _⟩ => show win0_9.index T (0 : Fin 3) * 1 ≤ (i 0).val ∧ (i 0).val < win0_9.index T (0 : Fin 3) * 1 + 1; omega
  | ⟨1, _⟩ => show win0_9.index T (1 : Fin 3) * 512 ≤ (i 1).val ∧ (i 1).val < win0_9.index T (1 : Fin 3) * 512 + 512; omega
  | ⟨2, _⟩ => show win0_9.index T (2 : Fin 3) * 1024 ≤ (i 2).val ∧ (i 2).val < win0_9.index T (2 : Fin 3) * 1024 + 1024; omega

/-- So result 1 ends as the specification's array. -/
theorem final9 (c : Dev nD) : (dats m 0 c).arrAt 9 cfg0.N = contextsOf m c :=
  (dats m 0 c).arrAt_eq_of_cover 9 (contextsOf m c) (fun t _ => flushed9_eq m c t) cover9

/-! ## The run -/

/-- Every weakly fair execution of the idealized kernel ends with the two results at the specification's weights and
    contexts of the argument arrays, the arguments unchanged. -/
theorem run : θ_run defs (onTc (τ := τ) (main (F := Ideal))) ⟨m, fun _ => 0, ρ⟩ fun r => ∀ c : Dev nD,
      r.2.mem ((c : Thread nD τ).loc main_v9_0) = weightsOf m c
      ∧ r.2.mem ((c : Thread nD τ).loc main_v9_1) = contextsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final8 m c), (h c).2.1.trans (final9 m c), (h c).2.2⟩)
    (Cert.KernelIdeal.Value.run_blocks m ρ)

end Cert.KernelIdeal.Blocks

end
-- ==== Proof.RefValue.lean ====
/-
  The reference computes the specification.

  Its operations, read one at a time at an index (b, l, ·): three matrix products through the transposed weights with
  their biases added, tanh, the row softmax in five steps (the row maximum once more compared with minus infinity,
  which changes nothing), and the batched product with the value array. The only algebra is that addition of
  extended reals is associative: the reference adds the second bias last, the specification adds it to the second
  product first.
-/
import proofs.«123392_j10849087389795_2_alg».proof.Proof.Gen.ReferenceIdeal.Read
import proofs.«123392_j10849087389795_2_alg».proof.Proof.AttnSpec
import proofs.«123392_j10849087389795_2_alg».proof.Proof.LibRowMax

noncomputable section

open Idealize.ShloMosaic Idealize.ShloMosaic.ValueIdx

namespace Cert.ReferenceIdeal.RefValue

open Cert.ReferenceIdeal Cert.ReferenceIdeal.Gen Cert.ReferenceIdeal.Read

variable (x0 x2 : (⟨S32x1024x1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S1024x1024, .f32⟩ : BufTy).Contents (Elt Ideal))
  (x8 : (⟨S1024, .f32⟩ : BufTy).Contents (Elt Ideal))

/-- A product's left operand index: the output's batch and row, the summed position. -/
theorem lidx_eq (b : Fin 32) (l j k : Fin 1024) : lidx_main_v0 (ix3 b l j) k = ix3 b l k :=
  funext fun a => Fin.ext (by match a with | ⟨0, _⟩ => rfl | ⟨1, _⟩ => rfl | ⟨2, _⟩ => rfl)
/-- A product's right operand index: the output's column picks the weight row. -/
theorem ridx_eq (b : Fin 32) (l j k : Fin 1024) : ridx_main_v0 (ix3 b l j) k = ix2 j k :=
  funext fun a => Fin.ext (by match a with | ⟨0, _⟩ => rfl | ⟨1, _⟩ => rfl)
/-- A bias repeated over batch and row reads its entry at the output's column. -/
theorem bidx_eq (b : Fin 32) (l j : Fin 1024) : idx_main_v1 (idx_main_v2 (ix3 b l j)) = ix1 j :=
  funext fun a => Fin.ext (by match a with | ⟨0, _⟩ => rfl)

/-- The reference's hidden array is the specification's. -/
theorem hidden_eq (b : Fin 32) (l j : Fin 1024) :
    val_main_v9 (F := Ideal) x0 x2 x3 x4 x5 x6 (ix3 b l j) = Attn.hidden x0 x2 x3 x5 x4 x6 b l j := by
  rw [val_main_v9_apply, val_main_v8_apply, val_main_v5_apply, val_main_v3_apply, val_main_v0_apply, val_main_v4_apply,
    val_main_v2_apply, val_main_v1_apply, val_main_v7_apply, val_main_v6_apply]
  unfold Attn.hidden
  simp only [Ideal.hostUnary_tanh_def, Ideal.addf_def]
  refine congrArg Ideal.tanh ((add_assoc _ _ _).trans (congrArg₂ (· + ·) (congrArg₂ (· + ·) ?_ ?_) (congrArg₂ (· + ·) ?_ ?_)))
  · exact Finset.sum_congr rfl fun k _ => by rw [lidx_eq, ridx_eq]
  · exact congrArg x4 (bidx_eq b l j)
  · exact Finset.sum_congr rfl fun k _ => congrArg₂ (· * ·) (congrArg x2 (lidx_eq b l j k)) (congrArg x5 (ridx_eq b l j k))
  · exact congrArg x6 (bidx_eq b l j)

/-- The reference's scores are the specification's. -/
theorem score_eq (b : Fin 32) (l o : Fin 1024) :
    val_main_v13 (F := Ideal) x0 x2 x3 x4 x5 x6 x7 x8 (ix3 b l o) = Attn.score x0 x2 x3 x5 x7 x4 x6 x8 b l o := by
  rw [val_main_v13_apply, val_main_v10_apply, val_main_v12_apply, val_main_v11_apply]
  unfold Attn.score
  refine congrArg₂ (· + ·) (Finset.sum_congr rfl fun k _ => congrArg₂ (· * ·) ?_ (congrArg x7 (ridx_eq b l o k))) (congrArg x8 (bidx_eq b l o))
  exact (congrArg _ (lidx_eq b l o k)).trans (hidden_eq x0 x2 x3 x4 x5 x6 b l k)

/-- The reference's row maximum: the fold of `max` over the row's scores; comparing it with minus infinity once more
    changes nothing. -/
theorem rowmax_eq (b : Fin 32) (l : Fin 1024) :
    val_main_v16 (F := Ideal) x0 x2 x3 x4 x5 x6 x7 x8 (ix2 b l)
      = (Finset.univ : Finset (Fin 1024)).fold max (Ideal.ofBits .f32 0xFF800000#32)
          (fun k => Attn.score x0 x2 x3 x5 x7 x4 x6 x8 b l k) := by
  rw [val_main_v16_apply, val_main_v15_apply, val_main_cst_0_apply]
  unfold val_main_v14
  rw [Cert.Lib.RowMax.hostRowMax3_apply _ _ reducesTo_S32x1024x1024_S32x1024_d2 (by decide) h_S_ b l, val_main_cst_apply]
  simp only [score_eq]
  exact Cert.Lib.RowMax.max_fold_self _ _

/-- The reference's exponentials: of each score less its row's maximum. -/
theorem exp_eq (b : Fin 32) (l k : Fin 1024) :
    val_main_v20 (F := Ideal) x0 x2 x3 x4 x5 x6 x7 x8 (ix3 b l k)
      = Ideal.exp (Attn.score x0 x2 x3 x5 x7 x4 x6 x8 b l k
          - (Finset.univ : Finset (Fin 1024)).fold max (Ideal.ofBits .f32 0xFF800000#32)
              (fun k' => Attn.score x0 x2 x3 x5 x7 x4 x6 x8 b l k')) := by
  rw [val_main_v20_apply, val_main_v19_apply, val_main_v18_apply, val_main_v17_apply, score_eq]
  have e : idx_main_v17 (idx_main_v18 (ix3 b l k)) = ix2 b l :=
    funext fun a => Fin.ext (by match a with | ⟨0, _⟩ => rfl | ⟨1, _⟩ => rfl)
  rw [e, rowmax_eq]
  rfl

/-- The reference's first result is the specification's weights. -/
theorem weight_eq (b : Fin 32) (l k : Fin 1024) :
    val_main_v24 (F := Ideal) x0 x2 x3 x4 x5 x6 x7 x8 (ix3 b l k) = Attn.weight x0 x2 x3 x5 x7 x4 x6 x8 b l k := by
  rw [val_main_v24_apply, val_main_v23_apply, val_main_v22_apply, val_main_v21_apply, val_main_cst_1_apply, exp_eq]
  have e : idx_main_v22 (idx_main_v23 (ix3 b l k)) = ix2 b l :=
    funext fun a => Fin.ext (by match a with | ⟨0, _⟩ => rfl | ⟨1, _⟩ => rfl)
  have e' : ∀ k', idx_main_v21 (ix2 b l) k' = ix3 b l k' := fun k' =>
    funext fun a => Fin.ext (by match a with | ⟨0, _⟩ => rfl | ⟨1, _⟩ => rfl | ⟨2, _⟩ => rfl)
  rw [e]
  simp only [e', exp_eq, Ideal.ofBits_def, Ideal.ofBits_zero_f32, zero_add, Ideal.hostDivf_def]
  rfl

/-- The reference's second result is the specification's contexts. -/
theorem context_eq (b : Fin 32) (l h : Fin 1024) :
    val_main_v25 (F := Ideal) x0 x2 x3 x4 x5 x6 x7 x8 (ix3 b l h) = Attn.context x0 x2 x3 x5 x7 x4 x6 x8 b l h := by
  rw [val_main_v25_apply]
  unfold Attn.context
  refine Finset.sum_congr rfl fun k _ => congrArg₂ (· * ·) ?_ (congrArg x2 ?_)
  · exact (congrArg _ (lidx_eq b l h k)).trans (weight_eq x0 x2 x3 x4 x5 x6 x7 x8 b l k)
  · exact funext fun a => Fin.ext (by match a with | ⟨0, _⟩ => rfl | ⟨1, _⟩ => rfl | ⟨2, _⟩ => rfl)

/-- As whole arrays. -/
theorem weights_eq : val_main_v24 (F := Ideal) x0 x2 x3 x4 x5 x6 x7 x8 = Attn.weights x0 x2 x3 x5 x7 x4 x6 x8 :=
  funext fun i => by
    obtain ⟨b, l, k, rfl⟩ : ∃ (b : Fin 32) (l k : Fin 1024), i = ix3 b l k := ⟨i 0, i 1, i 2, eq_ix3 i⟩
    exact weight_eq x0 x2 x3 x4 x5 x6 x7 x8 b l k

theorem contexts_eq : val_main_v25 (F := Ideal) x0 x2 x3 x4 x5 x6 x7 x8 = Attn.contexts x0 x2 x3 x5 x7 x4 x6 x8 :=
  funext fun i => by
    obtain ⟨b, l, h, rfl⟩ : ∃ (b : Fin 32) (l h : Fin 1024), i = ix3 b l h := ⟨i 0, i 1, i 2, eq_ix3 i⟩
    exact context_eq x0 x2 x3 x4 x5 x6 x7 x8 b l h

end Cert.ReferenceIdeal.RefValue

end
-- ==== Proof.lean ====
/-
  Additive (Bahdanau) attention: a tiled kernel against the plain formula, equal as extended reals.

  For 32 batches of 1024 rows and width 1024, both programs compute, per batch b and row l,
    hidden = tanh((query row · w1ᵀ + b1) + (value row · w2ᵀ + b2)),   score = hidden · vwᵀ + vb,
    weights = softmax of the score row,   context = weights · (batch b's value matrix).
  The kernel works on tiles of 512 rows, two per batch; it keeps the batch's value matrix between the two tiles of
  a batch (stored on the first tile, reused on the second), applies the three weight matrices as products with their
  transposes, and changes float format around every product — the identity on extended reals. The reference adds the
  second bias after the second product has been added to the first sum; the kernel adds each bias to its own product
  first. Addition of extended reals is associative, so the two agree; nothing else separates them, and no finiteness
  of the inputs is used.

  Modules: AttnSpec (the formula), Pieces (what one run of the body leaves, as values of what it read), TileValue (the
  body's arithmetic on a tile, entry by entry), BlockReads (a point's input blocks as entries of the arguments),
  BlockValues (the kept value matrix; a point's two output blocks), ArrayValues (the blocks tile the results; the
  run), RefValue (the reference computes the formula). The frames of the two kernel programs and the reference's run
  are the generated modules'.
-/
import proofs.«123392_j10849087389795_2_alg».proof.Defs
import proofs.«123392_j10849087389795_2_alg».proof.Proof.Gen.Kernel
import proofs.«123392_j10849087389795_2_alg».proof.Proof.Gen.Kernel.Skeleton
import proofs.«123392_j10849087389795_2_alg».proof.Proof.Gen.Kernel.Launch
import proofs.«123392_j10849087389795_2_alg».proof.Proof.Gen.Kernel.Points
import proofs.«123392_j10849087389795_2_alg».proof.Proof.Gen.Kernel.Frame
import proofs.«123392_j10849087389795_2_alg».proof.Proof.Gen.KernelIdeal
import proofs.«123392_j10849087389795_2_alg».proof.Proof.Gen.KernelIdeal.Skeleton
import proofs.«123392_j10849087389795_2_alg».proof.Proof.Gen.KernelIdeal.Launch
import proofs.«123392_j10849087389795_2_alg».proof.Proof.Gen.KernelIdeal.Points
import proofs.«123392_j10849087389795_2_alg».proof.Proof.Gen.KernelIdeal.Frame
import proofs.«123392_j10849087389795_2_alg».proof.Proof.Gen.ReferenceIdeal
import proofs.«123392_j10849087389795_2_alg».proof.Proof.Gen.Pre_finite_inputs
import proofs.«123392_j10849087389795_2_alg».proof.Proof.Gen.KernelIdeal.Value
import proofs.«123392_j10849087389795_2_alg».proof.Proof.Gen.ReferenceIdeal.Run
import proofs.«123392_j10849087389795_2_alg».proof.Proof.Gen.ReferenceIdeal.Read
import proofs.«123392_j10849087389795_2_alg».proof.Proof.ArrayValues
import proofs.«123392_j10849087389795_2_alg».proof.Proof.RefValue
import Idealize.ShloMosaic.Adequacy
import Idealize.ShloMosaic.Init

noncomputable section

namespace Cert.Proof

open Idealize.ShloMosaic Idealize.SL.Sem

/-- The kernel as printed runs, faults nowhere, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel on the extended reals rewrote no operation. -/
theorem preserves : Cert.preserves_Kernel_KernelIdeal := trivial

/-- From memories agreeing on the arguments, the kernel ends with its two results at the specification's weights and
    contexts of the arguments, and the reference ends with its two results at the same arrays. -/
theorem algebraic : Cert.algebraic_KernelIdeal_ReferenceIdeal := by
  intro m ρ m' ρ' _ hagree
  refine ⟨fun c => Cert.KernelIdeal.Blocks.weightsOf m c, fun c => Cert.KernelIdeal.Blocks.contextsOf m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, -, a2, a3, a4, a5, a6, a7, a8⟩ := hagree c
    rw [Cert.ReferenceIdeal.Read.val_main_v24_eq, Cert.ReferenceIdeal.RefValue.weights_eq, a0, a2, a3, a4, a5, a6, a7, a8]
  · obtain ⟨a0, -, a2, a3, a4, a5, a6, a7, a8⟩ := hagree c
    rw [Cert.ReferenceIdeal.Read.val_main_v25_eq, Cert.ReferenceIdeal.RefValue.contexts_eq, a0, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
